-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x44 : Shape := ⟨2, ![2000000, 44]⟩
abbrev S_ : Shape := ⟨0, ![]⟩

class Facts : Prop where
  bcast_S_S2000000x44 : S_.BroadcastsInDim S2000000x44 (![] : Fin 0 → Fin S2000000x44.rank)
  reducesTo_S2000000x44_S_d0_1 : S2000000x44.ReducesTo [0, 1] S_
  h_S_ : 0 < S_.numel

variable [Facts]

def fn {F : FTy → Type} [FloatOps F] (main_arg0 : FVec F S2000000x44 .f32) : IVec S_ 1 :=
  let main_v0 : FVec F S2000000x44 .f32 := Host.absf main_arg0
  let main_cst : FVec F S_ .f32 := constant S_ .f32 0x7F800000#32
  let main_v1 : FVec F S2000000x44 .f32 := broadcastInDim S2000000x44 ![] bcast_S_S2000000x44 main_cst
  let main_v2 : IVec S2000000x44 1 := cmpf .olt main_v0 main_v1
  let main_c : IVec S_ 1 := constantI S_ 1 1#1
  let main_v3 : IVec S_ 1 := (fun x v => Host.reduce IntOp.andi x v reducesTo_S2000000x44_S_d0_1 h_S_) main_v2 main_c
  main_v3
-- ==== Kernel.lean ====
abbrev S2000000x44 : Shape := ⟨2, ![2000000, 44]⟩
abbrev S_ : Shape := ⟨0, ![]⟩
abbrev S1x10 : Shape := ⟨2, ![1, 10]⟩
abbrev S2000000x10 : Shape := ⟨2, ![2000000, 10]⟩
abbrev S20000x10 : Shape := ⟨2, ![20000, 10]⟩

abbrev nBuf : Space → Nat
  | .hbm => 6
  | .vmem => 4
  | .smem => 0
  | _ => 0

abbrev bufTy : (tb : Table) → Fin (tcTables nBuf tb) → BufTy
  | .hbm, ⟨0, _⟩ => ⟨S2000000x44, .f32⟩
  | .hbm, ⟨1, _⟩ => ⟨S_, .f32⟩
  | .hbm, ⟨2, _⟩ => ⟨S1x10, .f32⟩
  | .hbm, ⟨3, _⟩ => ⟨S_, .f32⟩
  | .hbm, ⟨4, _⟩ => ⟨S1x10, .f32⟩
  | .hbm, ⟨5, _⟩ => ⟨S2000000x10, .f32⟩
  | .local _ .vmem, ⟨0, _⟩ => ⟨S1x10, .f32⟩
  | .local _ .vmem, ⟨1, _⟩ => ⟨S1x10, .f32⟩
  | .local _ .vmem, ⟨2, _⟩ => ⟨S20000x10, .f32⟩
  | .local _ .vmem, ⟨3, _⟩ => ⟨S20000x10, .f32⟩
  | _, _ => ⟨S2000000x44, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1x10 : S_.BroadcastsInDim S1x10 (![] : Fin 0 → Fin S1x10.rank)
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S20000x10 : S1x10.Broadcasts S20000x10
  inb_S20000x10_S20000x10_0_0 : ∀ a, (![0, 0] : Fin 2 → Nat) a + S20000x10.size a ≤ S20000x10.size a
  h_S20000x10 : 0 < S20000x10.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x10.size a ≤ S1x10.size a
  hwx0_0 : ∀ i : grid0.Coords, EltTy.bits .f32 = 32 ∨ (Rect.block (s := S1x10) S1x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x10.size a ≤ S1x10.size a
  hwx0_1 : ∀ i : grid0.Coords, EltTy.bits .f32 = 32 ∨ (Rect.block (s := S1x10) S1x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x10.size a ≤ S2000000x10.size a
  hwx0_2 : ∀ i : grid0.Coords, EltTy.bits .f32 = 32 ∨ (Rect.block (s := S2000000x10) S20000x10.size (cc0_transform_2 i) (hinb0_2 i)).WholeWords (EltTy.packing .f32)

variable [Facts₀]

abbrev win0_0 : Pipeline.Window sig grid0 :=
  Pipeline.Window.ofSpec (Memref.whole main_v0) S1x10.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S20000x10.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2000000x44 : Shape := ⟨2, ![2000000, 44]⟩
abbrev S_ : Shape := ⟨0, ![]⟩
abbrev S10 : Shape := ⟨1, ![10]⟩
abbrev S1x10 : Shape := ⟨2, ![1, 10]⟩
abbrev S2000000x10 : Shape := ⟨2, ![2000000, 10]⟩

abbrev nBuf : Space → Nat
  | .hbm => 12
  | .vmem => 0
  | .smem => 0
  | _ => 0

abbrev bufTy : (tb : Table) → Fin (tcTables nBuf tb) → BufTy
  | .hbm, ⟨0, _⟩ => ⟨S2000000x44, .f32⟩
  | .hbm, ⟨1, _⟩ => ⟨S_, .f32⟩
  | .hbm, ⟨2, _⟩ => ⟨S10, .f32⟩
  | .hbm, ⟨3, _⟩ => ⟨S_, .f32⟩
  | .hbm, ⟨4, _⟩ => ⟨S10, .f32⟩
  | .hbm, ⟨5, _⟩ => ⟨S10, .f32⟩
  | .hbm, ⟨6, _⟩ => ⟨S10, .f32⟩
  | .hbm, ⟨7, _⟩ => ⟨S_, .f32⟩
  | .hbm, ⟨8, _⟩ => ⟨S10, .f32⟩
  | .hbm, ⟨9, _⟩ => ⟨S10, .f32⟩
  | .hbm, ⟨10, _⟩ => ⟨S1x10, .f32⟩
  | .hbm, ⟨11, _⟩ => ⟨S2000000x10, .f32⟩
  | _, _ => ⟨S2000000x44, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S_S10 : S_.BroadcastsInDim S10 (![] : Fin 0 → Fin S10.rank)
  bcast_S10_S1x10_1 : S10.BroadcastsInDim S1x10 (![1] : Fin 1 → Fin S1x10.rank)
  bcast_S1x10_S2000000x10_0_1 : S1x10.BroadcastsInDim S2000000x10 (![0, 1] : Fin 2 → Fin S2000000x10.rank)

variable [Facts₀]

class Facts : Prop extends Facts₀ where

variable [Facts]
-- ==== Proof.RowEntry.lean ====
/-
  The one number the whole result consists of.

  Both programs fill a 2,000,000 × 10 array with a single scalar that depends on no input: the non-negative part of the
  quotient of minus a zero entry by a one entry, `max (−q / d) 0`, with `q` the binary32 word of 0.0 and `d` the word of
  1.0. The kernel spells the negation as the subtraction `0 − q`, the reference as the negation `−q`. On the extended
  reals `0 − 0 = 0 = −0`, and from there on the two terms are letter for letter the same — the same quotient by the same
  word, the same maximum with the same zero word — so neither the word of 1.0, nor the quotient, nor the maximum is ever
  evaluated. No law used here needs a finite operand: the only operands are these two constants.
-/
import Idealize.ShloMosaic.PureOps.Ideal
import Idealize.ShloMosaic.PureOps.Ideal.Laws

noncomputable section

namespace Cert.RowEntry

open Idealize.ShloMosaic

/-- The entry every row holds in every column, in the reference's spelling: `max (−0 / 1) 0`, the zero and the one
    being the binary32 words `0x00000000` and `0x3F800000`. -/
def lam : Ideal .f32 :=
  FloatOps.maximumf
    (FloatOps.hostDivf (FloatOps.hostNegf (FloatOps.ofBits .f32 0x00000000#32)) (FloatOps.ofBits .f32 0x3F800000#32))
    (FloatOps.ofBits .f32 0x00000000#32)

/-- Subtracting the zero word from the zero word is negating it: both are the real number 0. -/
theorem zero_sub_zero_eq_neg_zero :
    FloatOps.subf (F := Ideal) (FloatOps.ofBits .f32 0x00000000#32) (FloatOps.ofBits .f32 0x00000000#32)
      = FloatOps.hostNegf (FloatOps.ofBits .f32 0x00000000#32) := by
  simp only [Ideal.subf_def, Ideal.hostNegf_def, Ideal.negf_def, Ideal.ofBits_def, Ideal.ofBits_zero_f32, sub_zero,
    neg_zero]

/-- The kernel's spelling of the entry, `max ((0 − q) / d) 0` with `q` the zero word and `d` the word of 1.0, is
    `lam`: the numerators agree by the lemma above, and the kernel's quotient and the host's are one operation on the
    extended reals. -/
theorem kernel_spelling (q d : Ideal .f32) (hq : q = FloatOps.ofBits .f32 0x00000000#32)
    (hd : d = FloatOps.ofBits .f32 0x3F800000#32) :
    FloatOps.maximumf (FloatOps.divf (FloatOps.subf (FloatOps.ofBits .f32 0x00000000#32) q) d)
      (FloatOps.ofBits .f32 0x00000000#32) = lam := by
  subst hq hd
  rw [zero_sub_zero_eq_neg_zero]
  rfl

end Cert.RowEntry

end
-- ==== Proof.RefIsConst.lean ====
/-
  The reference's result is the constant array.

  The reference builds a row of ten entries `max (−q / d) 0` from a row of zero words `q` and a row of one words `d`,
  and then copies that row to every one of the 2,000,000 rows. Read at any index, each copy and each entrywise operation
  looks up its operand at an index, and the two rows of constants hold the same word at every index: so the entry read is
  the scalar `lam`, whatever the index.
-/
import proofs.«117755_j57595511439912_2_alg».proof.Proof.Gen.ReferenceIdeal.Read
import proofs.«117755_j57595511439912_2_alg».proof.Proof.RowEntry

noncomputable section

namespace Cert.ReferenceIdeal.RefValue

open Cert.ReferenceIdeal Cert.ReferenceIdeal.Read Idealize.ShloMosaic

/-- The reference's last stage at an index: through the two copies to the row, then the maximum, the quotient and the
    negation entrywise, down to the constants' words. -/
theorem result_apply (i : S2000000x10.Idx) : val_main_v7 (F := Ideal) i = Cert.RowEntry.lam := by
  rw [val_main_v7_apply, val_main_v6_apply, val_main_v5_apply, val_main_v3_apply, val_main_v2_apply, val_main_v1_apply,
    val_main_cst_0_apply, val_main_v0_apply, val_main_cst_apply, val_main_v4_apply, val_main_cst_1_apply]
  rfl

/-- So the reference's result is the array holding `lam` everywhere. -/
theorem result_eq : val_main_v7 (F := Ideal) = fun _ => Cert.RowEntry.lam := funext result_apply

end Cert.ReferenceIdeal.RefValue

end
-- ==== Proof.KernelIsConst.lean ====
/-
  The kernel's result is the constant array.

  The kernel's two operands are rows of ten entries that the program itself writes before the launch: a row of zero words
  `q` and a row of one words `d`. Each of the 100 grid points loads both rows whole, forms the row `max ((0 − q) / d) 0`
  and copies it to all 20,000 rows of its output block; point `t` writes rows `20000 t … 20000 t + 19999` of the result.
  So every entry a point writes is the scalar `lam`, whatever the point and the index, and since the 100 blocks tile the
  2,000,000 rows the result ends holding `lam` everywhere.
-/
import proofs.«117755_j57595511439912_2_alg».proof.Proof.Gen.KernelIdeal.Value
import proofs.«117755_j57595511439912_2_alg».proof.Proof.RowEntry
import Idealize.ShloMosaic.Lib.Pipeline.Value
import Idealize.ShloMosaic.Lib.StableHlo.Run

noncomputable section

namespace Cert.KernelIdeal.ConstValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The array the result is claimed to end as: `lam` at every index. -/
abbrev filled : S2000000x10.Idx → Elt Ideal .f32 := fun _ => Cert.RowEntry.lam

/-! ## The two operand rows, as the launch finds them -/

/-- The first operand is the zero word copied to a row: at every index it holds the zero word. -/
theorem row_q (c : Dev nD) (j : S1x10.Idx) :
    (V m c main_v0 : S1x10.Idx → EReal) j = FloatOps.ofBits (F := Ideal) .f32 0x00000000#32 := by
  have e : (V m c main_v0 : S1x10.Idx → EReal)
      = broadcastInDim S1x10 ![] bcast_S_S1x10 (constant (F := Ideal) S_ .f32 0x00000000#32) := by
    dsimp only [Gen.V, Gen.hostOps0]; after_results
  rw [e]
  exact (broadcastInDim_apply _ bcast_S_S1x10 _ j (fun a => a.elim0) (fun a => a.elim0)).trans rfl

/-- The second operand is the word of 1.0 copied to a row: at every index it holds that word. -/
theorem row_d (c : Dev nD) (j : S1x10.Idx) :
    (V m c main_v1 : S1x10.Idx → EReal) j = FloatOps.ofBits (F := Ideal) .f32 0x3F800000#32 := by
  have e : (V m c main_v1 : S1x10.Idx → EReal)
      = broadcastInDim S1x10 ![] bcast_S_S1x10 (constant (F := Ideal) S_ .f32 0x3F800000#32) := by
    dsimp only [Gen.V, Gen.hostOps0]; after_results
  rw [e]
  exact (broadcastInDim_apply _ bcast_S_S1x10 _ j (fun a => a.elim0) (fun a => a.elim0)).trans rfl

/-- Whatever block of the first operand a point loads, it holds the zero word everywhere. -/
theorem blk_q (c : Dev nD) (t : Fin cfg0.N) (y : ((cfg0.win 0).xblock (cfg0.grid.coords t)).Idx) :
    iblk m c 0 t y = FloatOps.ofBits (F := Ideal) .f32 0x00000000#32 :=
  row_q m c (((cfg0.win 0).blk t).view.emb y)

/-- Whatever block of the second operand a point loads, it holds the word of 1.0 everywhere. -/
theorem blk_d (c : Dev nD) (t : Fin cfg0.N) (y : ((cfg0.win 1).xblock (cfg0.grid.coords t)).Idx) :
    iblk m c 1 t y = FloatOps.ofBits (F := Ideal) .f32 0x3F800000#32 :=
  row_d m c (((cfg0.win 1).blk t).view.emb y)

/-! ## What one point leaves in its block -/

theorem origin : (![0, 0] : Fin 2 → Nat) = fun _ => 0 := funext fun a => by fin_cases a <;> rfl

/-- From a row of zero words and a row of one words the body leaves `lam` at every index of its block: the block is,
    index by index, `max ((0 − q) / d) 0` of the entries of the two rows in the index's column. -/
theorem block_entry (x0 x1 : Vec Ideal S1x10 .f32) (h0 : ∀ j, x0 j = FloatOps.ofBits (F := Ideal) .f32 0x00000000#32)
    (h1 : ∀ j, x1 j = FloatOps.ofBits (F := Ideal) .f32 0x3F800000#32) (y : S20000x10.Idx) :
    out0_2 x0 x1 y = Cert.RowEntry.lam := by
  unfold out0_2
  rw [Value.canon2_eq]
  simp only [View.ld_unit_zero (S := S1x10) origin]
  exact Cert.RowEntry.kernel_spelling _ _ (h0 _) (h1 _)

/-- What point `t` writes back is block `t` of the constant array. -/
theorem flushed_eq (c : Dev nD) (t : Fin cfg0.N) :
    (dats m 0 c).flushed 2 t = ((cfg0.win 2).blk t).view.read (Elt Ideal) filled := by
  rw [Value.flushed2]
  funext j
  exact block_entry (iblk m c 0 t) (iblk m c 1 t) (blk_q m c t) (blk_d m c t) j

/-! ## The 100 blocks tile the rows -/

/-- Point `t`'s output block is block `t` along the rows and the only block along the columns (decided over the grid). -/
theorem block_index : ∀ t : Fin cfg0.N, win0_2.index t (0 : Fin 2) = t.val ∧ win0_2.index t (1 : Fin 2) = 0 :=
  (by decide +kernel : ∀ t : Fin grid0.N, _)

/-- An index of the result is in point `t`'s block iff each coordinate is in the block's range on its axis. -/
theorem mem_block (t : Fin cfg0.N) (i : S2000000x10.Idx) :
    i ∈ ((cfg0.win 2).blk t).view.set ↔ ∀ a : Fin 2, win0_2.index t a * S20000x10.size a ≤ (i a).val
      ∧ (i a).val < win0_2.index t a * S20000x10.size a + S20000x10.size a := by
  show i ∈ ((View.whole main_v2).slice (win0_2.rect t)).set ↔ _
  rw [View.set_slice_whole, Rect.mem_set_unit]
  exact Iff.rfl

/-- Row `r` lies in the block of point `r / 20000`: every index of the result is written by some point. -/
theorem cover (i : S2000000x10.Idx) :
    ∃ t : Fin cfg0.N, (cfg0.win 2).flush t = true ∧ i ∈ ((cfg0.win 2).blk t).view.set := by
  have hi0 : (i 0).val < 2000000 := (i 0).isLt
  have hi1 : (i 1).val < 10 := (i 1).isLt
  have hN : cfg0.N = 100 := N_0
  obtain ⟨t, ht⟩ : ∃ t : Fin cfg0.N, t.val = (i 0).val / 20000 := ⟨⟨(i 0).val / 20000, by omega⟩, rfl⟩
  obtain ⟨e0, e1⟩ := block_index t
  refine ⟨t, flush0_2 t, ?_⟩
  rw [mem_block]
  intro a
  match a with
  | ⟨0, _⟩ =>
    show win0_2.index t (0 : Fin 2) * 20000 ≤ (i 0).val ∧ (i 0).val < win0_2.index t (0 : Fin 2) * 20000 + 20000
    omega
  | ⟨1, _⟩ =>
    show win0_2.index t (1 : Fin 2) * 10 ≤ (i 1).val ∧ (i 1).val < win0_2.index t (1 : Fin 2) * 10 + 10
    omega

/-! ## The result after the run -/

/-- The result array after all 100 points: `lam` everywhere. -/
theorem final (c : Dev nD) : (dats m 0 c).arrAt 2 cfg0.N = filled :=
  (dats m 0 c).arrAt_eq_of_cover 2 filled (fun t _ => flushed_eq m c t) cover

/-- Every weakly fair execution of the kernel's program terminates with the result holding `lam` everywhere and the
    argument array unchanged. -/
theorem run : θ_run defs (onTc (τ := τ) (main (F := Ideal))) ⟨m, fun _ => 0, ρ⟩ fun r => ∀ c : Dev nD,
      r.2.mem ((c : Thread nD τ).loc main_v2) = filled
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ConstValue

end
-- ==== Proof.lean ====
/-
  Both programs fill a 2,000,000 × 10 array with one number that depends on no input.

  The kernel never reads its argument: it writes, before the launch, a row of ten zero words `q` and a row of ten one
  words `d`, and each of its 100 grid points stores the row `max ((0 − q) / d) 0` into all 20,000 rows of its block. The
  reference forms the row `max (−q / d) 0` from the same two words and copies it to every row. On the extended reals
  `0 − 0 = −0`, and beyond that the two terms are the same quotient by the same word and the same maximum with the same
  zero word (Proof/RowEntry.lean): so the kernel's result (Proof/KernelIsConst.lean: every block holds that number, and
  the blocks tile the rows) and the reference's (Proof/RefIsConst.lean: every copy reads that number) are one constant
  array. Nothing here needs an input to be finite, since no input is read; the argument array is left unchanged by both.
  The idealization rewrote no operation of the kernel, so there is nothing to preserve beyond the text itself.
-/
import proofs.«117755_j57595511439912_2_alg».proof.Defs
import proofs.«117755_j57595511439912_2_alg».proof.Proof.Gen.Kernel
import proofs.«117755_j57595511439912_2_alg».proof.Proof.Gen.Kernel.Skeleton
import proofs.«117755_j57595511439912_2_alg».proof.Proof.Gen.Kernel.Launch
import proofs.«117755_j57595511439912_2_alg».proof.Proof.Gen.Kernel.Points
import proofs.«117755_j57595511439912_2_alg».proof.Proof.Gen.Kernel.Frame
import proofs.«117755_j57595511439912_2_alg».proof.Proof.Gen.KernelIdeal
import proofs.«117755_j57595511439912_2_alg».proof.Proof.Gen.KernelIdeal.Skeleton
import proofs.«117755_j57595511439912_2_alg».proof.Proof.Gen.KernelIdeal.Launch
import proofs.«117755_j57595511439912_2_alg».proof.Proof.Gen.KernelIdeal.Points
import proofs.«117755_j57595511439912_2_alg».proof.Proof.Gen.KernelIdeal.Frame
import proofs.«117755_j57595511439912_2_alg».proof.Proof.Gen.ReferenceIdeal
import proofs.«117755_j57595511439912_2_alg».proof.Proof.Gen.Pre_finite_inputs
import proofs.«117755_j57595511439912_2_alg».proof.Proof.Gen.KernelIdeal.Value
import proofs.«117755_j57595511439912_2_alg».proof.Proof.Gen.ReferenceIdeal.Run
import proofs.«117755_j57595511439912_2_alg».proof.Proof.Gen.ReferenceIdeal.Read
import Idealize.ShloMosaic.Adequacy
import Idealize.ShloMosaic.Init
import proofs.«117755_j57595511439912_2_alg».proof.Proof.RefIsConst
import proofs.«117755_j57595511439912_2_alg».proof.Proof.KernelIsConst

noncomputable section

namespace Cert.Proof

open Idealize.ShloMosaic Idealize.SL.Sem Cert.Kernel

/-- The word-level kernel runs, faults nowhere and leaves its argument as it was. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run with the result forgotten. -/
theorem frame_reference_ideal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both runs end with the array that holds `max (−0 / 1) 0` at every index: the kernel's by its blocks, the reference's
    by its copies. The arguments' agreement is not used, because neither result depends on the argument. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ _
  refine ⟨fun _ => Cert.KernelIdeal.ConstValue.filled, Cert.KernelIdeal.ConstValue.run m ρ, ?_⟩
  refine (θ_run Cert.ReferenceIdeal.defs _ _).mono (fun _ h c => ⟨(h c).1.trans ?_, (h c).2⟩)
    (Cert.ReferenceIdeal.Value.run (F := Ideal) m' ρ')
  exact Cert.ReferenceIdeal.Read.val_main_v7_eq.trans Cert.ReferenceIdeal.RefValue.result_eq

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
